-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_33" .f32 0x3CF83E10#32 ((1 / 33 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x32x128 : Shape := ⟨3, ![10000, 32, 128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x32x128 : S_.BroadcastsInDim S10000x32x128 (![] : Fin 0 → Fin S10000x32x128.rank)
  reducesTo_S10000x32x128_S_d0_1_2 : S10000x32x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x32x128 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x32x128 .f32 := Host.absf main_arg1
  let main_cst_0 : FVec F S_ .f32 := constant S_ .f32 0x7F800000#32
  let main_v5 : FVec F S10000x32x128 .f32 := broadcastInDim S10000x32x128 ![] bcast_S_S10000x32x128 main_cst_0
  let main_v6 : IVec S10000x32x128 1 := cmpf .olt main_v4 main_v5
  let main_c_1 : IVec S_ 1 := constantI S_ 1 1#1
  let main_v7 : IVec S_ 1 := (fun x v => Host.reduce IntOp.andi x v reducesTo_S10000x32x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x32x128 : Shape := ⟨3, ![10000, 32, 128]⟩
abbrev S128x128 : Shape := ⟨2, ![128, 128]⟩
abbrev S400x128 : Shape := ⟨2, ![400, 128]⟩
abbrev S400x32x128 : Shape := ⟨3, ![400, 32, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x32x128, .f32⟩
  | .hbm, ⟨2, _⟩ => ⟨S128x128, .f32⟩
  | .hbm, ⟨3, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S400x32x128, .f32⟩
  | .local _ .vmem, ⟨3, _⟩ => ⟨S400x32x128, .f32⟩
  | .local _ .vmem, ⟨4, _⟩ => ⟨S128x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x32x128_S400x32x128_0_0_0 : ∀ a, (![0, 0, 0] : Fin 3 → Nat) a + S400x32x128.size a ≤ S400x32x128.size a
  h_S400x32x128 : 0 < S400x32x128.numel
  reduces_S400x32x128_S400x128 : S400x32x128.Reduces [1] S400x128
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x32x128.size a ≤ S10000x32x128.size a
  hwx0_1 : ∀ i : grid0.Coords, EltTy.bits .f32 = 32 ∨ (Rect.block (s := S10000x32x128) S400x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x32x128 : Shape := ⟨3, ![10000, 32, 128]⟩
abbrev S128x128 : Shape := ⟨2, ![128, 128]⟩
abbrev S10000x1x128 : Shape := ⟨3, ![10000, 1, 128]⟩
abbrev S10000x33x128 : Shape := ⟨3, ![10000, 33, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x32x128, .f32⟩
  | .hbm, ⟨2, _⟩ => ⟨S128x128, .f32⟩
  | .hbm, ⟨3, _⟩ => ⟨S10000x1x128, .f32⟩
  | .hbm, ⟨4, _⟩ => ⟨S10000x33x128, .f32⟩
  | .hbm, ⟨5, _⟩ => ⟨S_, .f32⟩
  | .hbm, ⟨6, _⟩ => ⟨S10000x128, .f32⟩
  | .hbm, ⟨7, _⟩ => ⟨S_, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S10000x128_S10000x1x128_0_2 : S10000x128.BroadcastsInDim S10000x1x128 (![0, 2] : Fin 2 → Fin S10000x1x128.rank)
  concatenates_S10000x32x128_S10000x1x128_S10000x33x128_d1 : Shape.Concatenates [S10000x32x128, S10000x1x128] S10000x33x128 1
  reducesTo_S10000x33x128_S10000x128_d1 : S10000x33x128.ReducesTo [1] S10000x128
  h_S_ : 0 < S_.numel
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibMiddleSum.lean ====
/-
  A sum over the middle axis of a rank-3 block, read at an entry.

  The f32 lane sum of an [a, b, c] vector over axis 1, taken from the zero pattern, is at (p, q) the sum over the b
  coordinates k of the vector at (p, k, q).  The accumulator hypothesis is the one a printed reduction carries
  (the zero word is the sum's neutral pattern).
-/
import Idealize.ShloMosaic.PureOps.Ideal.Laws
import Idealize.ShloMosaic.Lib.ValueIdx

noncomputable section

namespace Cert.MiddleSum

open Idealize.ShloMosaic Idealize.ShloMosaic.ValueIdx

/-- Entry (p, q) of the sum over the middle axis is Σ_k src(p, k, q). -/
theorem middle_sum_apply {a b c : ℕ} (src : FVec Ideal (⟨3, ![a, b, c]⟩ : Shape) .f32)
    (h : (⟨3, ![a, b, c]⟩ : Shape).Reduces [1] (⟨2, ![a, c]⟩ : Shape)) (hφ : FKind.Formats .f32)
    (hacc : (0x00000000#32 : BitVec 32) = FKind.add.neutral .f32 hφ) (p : Fin a) (q : Fin c) :
    multiReduction (F := Ideal) .add [1] (⟨2, ![a, c]⟩ : Shape) src 0x00000000#32 h hφ hacc (ix2 p q)
      = ∑ k : Fin b, src (ix3 p k q) := by
  refine (Ideal.multiReduction_add_single src 0x00000000#32 h hφ hacc (ix2 p q)).trans ?_
  refine Finset.sum_congr rfl fun k _ => congrArg src (funext fun x => Fin.ext ?_)
  match x with
  | ⟨0, _⟩ => rfl
  | ⟨1, _⟩ => rfl
  | ⟨2, _⟩ => rfl

end Cert.MiddleSum

end
-- ==== Proof.KernelEntry.lean ====
/-
  What the kernel body stores, entry by entry.

  The body holds a block of 400 nodes: their own rows v2 (400 × 128), their neighbour rows v0 (400 × 32 × 128) and the
  whole weight matrix v6 (128 × 128).  It sums the neighbour rows over the neighbour axis, adds the node's row, scales
  by the constant named 1/33, multiplies by the weights into a zero accumulator and clips at zero.  Entry (p, q) of the
  stored block is therefore  max ( Σ_d ((Σ_k v0(p, k, d) + v2(p, d)) · (1/33)) · v6(d, q) , 0 ).
-/
import proofs.«123749_g8315056685452_cont_sun_m_1305_14_alg».proof.Proof.Gen.KernelIdeal.Skeleton
import proofs.«123749_g8315056685452_cont_sun_m_1305_14_alg».proof.Proof.LibPlainMatmul
import proofs.«123749_g8315056685452_cont_sun_m_1305_14_alg».proof.Proof.LibMiddleSum
import Idealize.ShloMosaic.PureOps.IdealRules

noncomputable section

namespace Cert.KernelIdeal.Entry

open Cert.KernelIdeal Cert.KernelIdeal.Gen Idealize.ShloMosaic Idealize.ShloMosaic.ValueIdx

/-- The scaling constant is the rational 1/33, by the certificate's table of named constants. -/
theorem inv_33 : Named.named (F := Ideal) κ "inv_33" (φ := .f32) 0x3CF83E10#32 = ((1 / 33 : ℝ) : EReal) :=
  IdealRules.named_const.ideal_named_scalar _ _ _ _ rfl

/-- The averaged block at (p, d): the 32 neighbour entries summed, the node's entry added, times 1/33. -/
theorem averaged_apply (v0 : FVec Ideal S400x32x128 .f32) (v2 : FVec Ideal S400x128 .f32) (p : Fin 400) (d : Fin 128) :
    mulf (addf (multiReduction (F := Ideal) .add [1] S400x128 v0 0x00000000#32 reduces_S400x32x128_S400x128 (.inl rfl) rfl) v2)
        (broadcast S400x128 (Named.named (F := Ideal) κ "inv_33" (φ := .f32) 0x3CF83E10#32)) (ix2 p d)
      = ((∑ k : Fin 32, v0 (ix3 p k d)) + v2 (ix2 p d)) * ((1 / 33 : ℝ) : EReal) := by
  show (multiReduction (F := Ideal) .add [1] S400x128 v0 0x00000000#32 reduces_S400x32x128_S400x128 (.inl rfl) rfl (ix2 p d)
      + v2 (ix2 p d)) * Named.named (F := Ideal) κ "inv_33" (φ := .f32) 0x3CF83E10#32 = _
  rw [inv_33]
  exact congrArg (fun z => (z + v2 (ix2 p d)) * ((1 / 33 : ℝ) : EReal))
    (MiddleSum.middle_sum_apply v0 reduces_S400x32x128_S400x128 (.inl rfl) rfl p d)

/-- Entry (p, q) of the stored block. -/
theorem stored_apply (v0 : FVec Ideal S400x32x128 .f32) (v2 : FVec Ideal S400x128 .f32) (v6 : FVec Ideal S128x128 .f32)
    (p : Fin 400) (q : Fin 128) :
    k0_pay1 (F := Ideal) v0 v2 v6 (ix2 p q)
      = max (∑ d : Fin 128, (((∑ k : Fin 32, v0 (ix3 p k d)) + v2 (ix2 p d)) * ((1 / 33 : ℝ) : EReal)) * v6 (ix2 d q)) 0 := by
  unfold k0_pay1
  show max (FloatOps.matmul (PlainMatmul.plain dot_S400x128_S128x128_S400x128_1_0_0_1_n_n_wf) none
      (mulf (addf (multiReduction (F := Ideal) .add [1] S400x128 v0 0x00000000#32 reduces_S400x32x128_S400x128 (.inl rfl) rfl) v2)
        (broadcast S400x128 (Named.named (F := Ideal) κ "inv_33" (φ := .f32) 0x3CF83E10#32)))
      v6 (constant S400x128 .f32 0x00000000#32) (ix2 p q)) (Ideal.ofBits .f32 0x00000000#32) = _
  refine (congrArg₂ max (PlainMatmul.matmul_zero_apply dot_S400x128_S128x128_S400x128_1_0_0_1_n_n_wf none _ v6 p q)
    Ideal.ofBits_zero_f32).trans ?_
  exact congrArg (fun z => max z 0)
    (Finset.sum_congr rfl fun d _ => congrArg (· * v6 (ix2 d q)) (averaged_apply v0 v2 p d))

end Cert.KernelIdeal.Entry

end
-- ==== Proof.MeanLayer.lean ====
/-
  One mean-aggregation layer of a graph network, entry by entry on the extended reals.

  Node n has a feature row self(n, ·) of 128 entries and 32 neighbour rows neigh(n, k, ·).  The layer averages the 33
  rows, multiplies the averaged row by a 128 × 128 weight matrix and clips at zero:

      out(n, j) = max ( Σ_d  mean(n, d) · W(d, j) , 0 ),     mean(n, d) = ( Σ_{k<32} neigh(n, k, d) + self(n, d) ) · (1/33).

  One program forms the mean as written here (the neighbour rows summed, the node's own row added, the sum scaled by
  1/33); the other appends the node's own row to its neighbour rows as a 33rd row, sums the 33 rows from zero and
  divides by 33.  The two agree on every extended real: a sum over 33 terms is the sum of the first 32 plus the last
  (addition on the extended reals is commutative and associative, infinities included, so no finiteness is needed),
  and division by the real 33 is multiplication by 1/33.
-/
import Idealize.ShloMosaic.PureOps.Ideal.Laws
import Idealize.ShloMosaic.Lib.ValueIdx

noncomputable section

namespace Cert.MeanLayer

open Idealize.ShloMosaic Idealize.ShloMosaic.ValueIdx

/-- The averaged feature d of node n: its 32 neighbour rows summed, its own row added, times 1/33. -/
def mean (self : (⟨2, ![10000, 128]⟩ : Shape).Idx → EReal) (neigh : (⟨3, ![10000, 32, 128]⟩ : Shape).Idx → EReal)
    (n : Fin 10000) (d : Fin 128) : EReal :=
  ((∑ k : Fin 32, neigh (ix3 n k d)) + self (ix2 n d)) * ((1 / 33 : ℝ) : EReal)

/-- The layer's output array: the averaged row times the weight matrix, clipped at zero. -/
def layer (self : (⟨2, ![10000, 128]⟩ : Shape).Idx → EReal) (neigh : (⟨3, ![10000, 32, 128]⟩ : Shape).Idx → EReal)
    (W : (⟨2, ![128, 128]⟩ : Shape).Idx → EReal) : (⟨2, ![10000, 128]⟩ : Shape).Idx → EReal :=
  fun i => max (∑ d : Fin 128, mean self neigh (i 0) d * W (ix2 d (i 1))) 0

/-- The f32 word of 33.0 is the real 33. -/
theorem ofBits_33 : Ideal.ofBits .f32 0x42040000#32 = ((33 : ℝ) : EReal) := by
  simp [Ideal.ofBits, Ideal.ieee, -EReal.coe_mul]; norm_num

/-- The mean of 33 rows taken as one sum from zero divided by 33 is the sum of the first 32 rows plus the last row,
    times 1/33. -/
theorem mean_of_joined (a : Fin 32 → EReal) (b : EReal) (c : Fin 33 → EReal)
    (hc : ∀ k : Fin 32, c k.castSucc = a k) (hl : c (Fin.last 32) = b) :
    Ideal.div (0 + ∑ k : Fin 33, c k) ((33 : ℝ) : EReal) = ((∑ k : Fin 32, a k) + b) * ((1 / 33 : ℝ) : EReal) := by
  rw [Ideal.div_coe (by norm_num : (33 : ℝ) ≠ 0), zero_add, Fin.sum_univ_castSucc, hl]
  simp only [hc]

end Cert.MeanLayer

end
-- ==== Proof.WholeArray.lean ====
/-
  From the kernel's blocks to its whole output array.

  The grid has 25 points.  At point t the kernel holds rows 400·t … 400·t + 399 of the nodes' own rows and of their
  neighbour rows, the whole weight matrix, and writes rows 400·t … 400·t + 399 of the output.  Row p of the block at
  point t is row n = 400·t + p of the arrays, so what point t writes back is block t of the layer of MeanLayer.lean
  taken of the whole argument arrays; the 25 blocks cover all 10000 rows, so the output array ends holding that layer.
-/
import proofs.«123749_g8315056685452_cont_sun_m_1305_14_alg».proof.Proof.Gen.KernelIdeal.Value
import proofs.«123749_g8315056685452_cont_sun_m_1305_14_alg».proof.Proof.KernelEntry
import proofs.«123749_g8315056685452_cont_sun_m_1305_14_alg».proof.Proof.MeanLayer

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The block index of every window at point t: the row blocks move with t, the weight matrix stays. -/
theorem block_index : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the block at point t is row 400·t + p of the arrays. -/
def row (t : Fin cfg0.N) (p : Fin 400) : Fin 10000 :=
  ⟨t.val * 400 + p.val, by have ht : t.val < 25 := t.isLt; have hp := p.isLt; omega⟩

/-- Where the output block's entry (p, q) lies in the output array. -/
theorem out_emb (t : Fin cfg0.N) (p : Fin 400) (q : Fin 128) :
    ((cfg0.win 3).blk t).view.emb (ix2 p q) = ix2 (row t p) q := by
  obtain ⟨-, -, -, -, -, -, -, e30, e31⟩ := block_index t
  funext a; apply Fin.ext
  match a with
  | ⟨0, _⟩ => show win0_3.index t (0 : Fin 2) * 400 + 1 * p.val = t.val * 400 + p.val; omega
  | ⟨1, _⟩ => show win0_3.index t (1 : Fin 2) * 128 + 1 * q.val = q.val; omega

/-- The block of the nodes' own rows at point t, read at (p, d). -/
theorem self_blk (c : Dev nD) (t : Fin cfg0.N) (p : Fin 400) (d : Fin 128) :
    iblk m c 0 t (ix2 p d) = V m c main_arg0 (ix2 (row t p) d) := by
  obtain ⟨e00, e01, -, -, -, -, -, -, -⟩ := block_index t
  show V m c main_arg0 (((cfg0.win 0).blk t).view.emb (ix2 p d)) = V m c main_arg0 (ix2 (row t p) d)
  refine congrArg (V m c main_arg0) (funext fun a => Fin.ext ?_)
  match a with
  | ⟨0, _⟩ => show win0_0.index t (0 : Fin 2) * 400 + 1 * p.val = t.val * 400 + p.val; omega
  | ⟨1, _⟩ => show win0_0.index t (1 : Fin 2) * 128 + 1 * d.val = d.val; omega

/-- The block of neighbour rows at point t, read at (p, k, d). -/
theorem neigh_blk (c : Dev nD) (t : Fin cfg0.N) (p : Fin 400) (k : Fin 32) (d : Fin 128) :
    iblk m c 1 t (ix3 p k d) = V m c main_arg1 (ix3 (row t p) k d) := by
  obtain ⟨-, -, e10, e11, e12, -, -, -, -⟩ := block_index t
  show V m c main_arg1 (((cfg0.win 1).blk t).view.emb (ix3 p k d)) = V m c main_arg1 (ix3 (row t p) k d)
  refine congrArg (V m c main_arg1) (funext fun a => Fin.ext ?_)
  match a with
  | ⟨0, _⟩ => show win0_1.index t (0 : Fin 3) * 400 + 1 * p.val = t.val * 400 + p.val; omega
  | ⟨1, _⟩ => show win0_1.index t (1 : Fin 3) * 32 + 1 * k.val = k.val; omega
  | ⟨2, _⟩ => show win0_1.index t (2 : Fin 3) * 128 + 1 * d.val = d.val; omega

/-- The weight block at every point is the whole weight matrix. -/
theorem weight_blk (c : Dev nD) (t : Fin cfg0.N) (d q : Fin 128) :
    iblk m c 2 t (ix2 d q) = V m c main_arg2 (ix2 d q) := by
  obtain ⟨-, -, -, -, -, e20, e21, -, -⟩ := block_index t
  show V m c main_arg2 (((cfg0.win 2).blk t).view.emb (ix2 d q)) = V m c main_arg2 (ix2 d q)
  refine congrArg (V m c main_arg2) (funext fun a => Fin.ext ?_)
  match a with
  | ⟨0, _⟩ => show win0_2.index t (0 : Fin 2) * 128 + 1 * d.val = d.val; omega
  | ⟨1, _⟩ => show win0_2.index t (1 : Fin 2) * 128 + 1 * q.val = q.val; omega

/-- What point t writes back is block t of the layer of the whole argument arrays. -/
theorem flushed_eq (c : Dev nD) (t : Fin cfg0.N) :
    (dats m 0 c).flushed 3 t = ((cfg0.win 3).blk t).view.read (Elt Ideal)
      (MeanLayer.layer (V m c main_arg0) (V m c main_arg1) (V m c main_arg2)) := by
  rw [Value.flushed3]
  unfold out0_3
  rw [View.canon_unit_zero zero2]
  simp only [View.ld_unit_zero (S := S400x128) zero2, View.ld_unit_zero (S := S400x32x128) zero3,
    View.ld_unit_zero (S := S128x128) zero2]
  funext j
  obtain ⟨p, q, rfl⟩ : ∃ (p : Fin 400) (q : Fin 128), j = ix2 p q := ⟨j 0, j 1, eq_ix2 j⟩
  show k0_pay1 (F := Ideal) (iblk m c 1 t) (iblk m c 0 t) (iblk m c 2 t) (ix2 p q)
    = MeanLayer.layer (V m c main_arg0) (V m c main_arg1) (V m c main_arg2) (((cfg0.win 3).blk t).view.emb (ix2 p q))
  rw [out_emb]
  refine (Entry.stored_apply (iblk m c 1 t) (iblk m c 0 t) (iblk m c 2 t) p q).trans ?_
  show _ = max (∑ d : Fin 128, MeanLayer.mean (V m c main_arg0) (V m c main_arg1) (row t p) d * V m c main_arg2 (ix2 d q)) 0
  unfold MeanLayer.mean
  refine congrArg (fun z => max z 0) (Finset.sum_congr rfl fun d _ => ?_)
  rw [self_blk, weight_blk]
  simp only [neigh_blk]

/-- An index of the output array lies in point t's block iff each coordinate lies in the block's range on its axis. -/
theorem mem_blk (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v0).slice (win0_3.rect t)).set ↔ _
  rw [View.set_slice_whole, Rect.mem_set_unit]
  exact Iff.rfl

/-- Every row of the output array lies in the block of the point that holds it: row r in block r / 400. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have ht : (i 0).val / 400 < 25 := by omega
  obtain ⟨-, -, -, -, -, -, -, e30, e31⟩ := block_index ⟨(i 0).val / 400, ht⟩
  refine ⟨⟨(i 0).val / 400, ht⟩, flush0_3 _, ?_⟩
  rw [mem_blk]
  intro a
  match a with
  | ⟨0, _⟩ =>
    show win0_3.index ⟨(i 0).val / 400, ht⟩ (0 : Fin 2) * 400 ≤ (i 0).val
      ∧ (i 0).val < win0_3.index ⟨(i 0).val / 400, ht⟩ (0 : Fin 2) * 400 + 400
    rw [e30]; show (i 0).val / 400 * 400 ≤ (i 0).val ∧ (i 0).val < (i 0).val / 400 * 400 + 400; omega
  | ⟨1, _⟩ =>
    show win0_3.index ⟨(i 0).val / 400, ht⟩ (1 : Fin 2) * 128 ≤ (i 1).val
      ∧ (i 1).val < win0_3.index ⟨(i 0).val / 400, ht⟩ (1 : Fin 2) * 128 + 128
    rw [e31]; omega

/-- The output array after the run is the layer of the argument arrays as launched. -/
theorem final (c : Dev nD) :
    (dats m 0 c).arrAt 3 cfg0.N = MeanLayer.layer (m ((c : Thread nD τ).loc main_arg0))
      (m ((c : Thread nD τ).loc main_arg1)) (m ((c : Thread nD τ).loc main_arg2)) :=
  (dats m 0 c).arrAt_eq_of_cover 3 _ (fun t _ => flushed_eq m c t) cover

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v0) = MeanLayer.layer (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.LibJoinRow.lean ====
/-
  One more row appended to each matrix of a stack.

  An [n, k, c] array joined along its middle axis with an [n, 1, c] array is an [n, k', c] array (k' = k + 1 in every
  use; the statement only needs the join to be well formed) whose row j < k of matrix p is the first array's row j
  of matrix p, and whose row k is the second array's only row of matrix p.
-/
import Idealize.ShloMosaic.Lib.Pipeline.Value
import Idealize.ShloMosaic.Lib.ValueIdx

noncomputable section

namespace Cert.JoinRow

open Idealize.ShloMosaic Idealize.ShloMosaic.ValueIdx

variable {α : Type} {n k k' c : ℕ}
  (x₁ : (⟨3, ![n, k, c]⟩ : Shape).Idx → α) (x₂ : (⟨3, ![n, 1, c]⟩ : Shape).Idx → α)
  (h : Shape.Concatenates [(⟨3, ![n, k, c]⟩ : Shape), (⟨3, ![n, 1, c]⟩ : Shape)] (⟨3, ![n, k', c]⟩ : Shape) 1)

/-- A row below k comes from the first array, at the same coordinates. -/
theorem join_apply_old (p : Fin n) (j : Fin k) (hj : j.val < k') (q : Fin c) :
    concatenate (⟨3, ![n, k', c]⟩ : Shape) 1 [⟨_, x₁⟩, ⟨_, x₂⟩] h (ix3 p ⟨j.val, hj⟩ q) = x₁ (ix3 p j q) :=
  concatenate_pair_apply_left 1 x₁ x₂ h (ix3 p ⟨j.val, hj⟩ q) rfl (ix3 p j q) (fun b => by
    match b with
    | ⟨0, _⟩ => rfl
    | ⟨1, _⟩ => rfl
    | ⟨2, _⟩ => rfl)

/-- Row k is the appended row. -/
theorem join_apply_new (p : Fin n) (hk : k < k') (q : Fin c) :
    concatenate (⟨3, ![n, k', c]⟩ : Shape) 1 [⟨_, x₁⟩, ⟨_, x₂⟩] h (ix3 p ⟨k, hk⟩ q) = x₂ (ix3 p 0 q) :=
  concatenate_pair_apply_right 1 x₁ x₂ h (ix3 p ⟨k, hk⟩ q) rfl rfl (ix3 p 0 q) (fun b hb => by
    match b with
    | ⟨0, _⟩ => rfl
    | ⟨1, _⟩ => exact absurd rfl hb
    | ⟨2, _⟩ => rfl) (by show (0 : ℕ) + k = k; omega)

end Cert.JoinRow

end
-- ==== Proof.RefEntry.lean ====
/-
  What the reference computes, entry by entry: it is the layer of MeanLayer.lean.

  The reference appends each node's own row to its 32 neighbour rows as a 33rd row, sums the 33 rows from zero, divides
  by 33, multiplies the averaged row by the weights and clips at zero.  Row k < 32 of the joined array is neighbour row
  k and row 32 is the node's own row, so the sum over the 33 rows is the neighbour sum plus the node's row, and the
  quotient by 33 is the product with 1/33.
-/
import proofs.«123749_g8315056685452_cont_sun_m_1305_14_alg».proof.Proof.Gen.ReferenceIdeal.Read
import proofs.«123749_g8315056685452_cont_sun_m_1305_14_alg».proof.Proof.LibJoinRow
import proofs.«123749_g8315056685452_cont_sun_m_1305_14_alg».proof.Proof.MeanLayer

noncomputable section

namespace Cert.ReferenceIdeal.Entry

open Cert.ReferenceIdeal Cert.ReferenceIdeal.Gen Cert.ReferenceIdeal.Read Idealize.ShloMosaic Idealize.ShloMosaic.ValueIdx

variable (x0 : (⟨S10000x128, .f32⟩ : BufTy).Contents (Elt Ideal)) (x1 : (⟨S10000x32x128, .f32⟩ : BufTy).Contents (Elt Ideal))
  (x2 : (⟨S128x128, .f32⟩ : BufTy).Contents (Elt Ideal))

/-- Row k < 32 of the joined array is neighbour row k. -/
theorem joined_old (n : Fin 10000) (k : Fin 32) (d : Fin 128) :
    val_main_v1 (F := Ideal) x0 x1 (ix3 n k.castSucc d) = x1 (ix3 n k d) := by
  unfold val_main_v1
  exact JoinRow.join_apply_old x1 (val_main_v0 (F := Ideal) x0) concatenates_S10000x32x128_S10000x1x128_S10000x33x128_d1
    n k (by omega) d

/-- Row 32 of the joined array is the node's own row. -/
theorem joined_new (n : Fin 10000) (d : Fin 128) :
    val_main_v1 (F := Ideal) x0 x1 (ix3 n (Fin.last 32) d) = x0 (ix2 n d) := by
  unfold val_main_v1
  refine (JoinRow.join_apply_new x1 (val_main_v0 (F := Ideal) x0) concatenates_S10000x32x128_S10000x1x128_S10000x33x128_d1
    n (by omega) d).trans ?_
  rw [val_main_v0_apply]
  exact congrArg x0 (funext fun a => Fin.ext (by match a with | ⟨0, _⟩ => rfl | ⟨1, _⟩ => rfl))

/-- The averaged array at (n, d) is the mean of the 33 rows. -/
theorem averaged_apply (n : Fin 10000) (d : Fin 128) :
    val_main_v4 (F := Ideal) x0 x1 (ix2 n d) = MeanLayer.mean x0 x1 n d := by
  rw [val_main_v4_apply, val_main_v2_apply, val_main_v3_apply, val_main_cst_0_apply, val_main_cst_apply]
  show Ideal.div (Ideal.ofBits .f32 0x00000000#32 + ∑ k : Fin 33, val_main_v1 (F := Ideal) x0 x1 (idx_main_v2 (ix2 n d) k))
      (Ideal.ofBits .f32 0x42040000#32) = _
  rw [Ideal.ofBits_zero_f32, MeanLayer.ofBits_33]
  unfold MeanLayer.mean
  refine MeanLayer.mean_of_joined (fun k => x1 (ix3 n k d)) (x0 (ix2 n d)) _ (fun k => ?_) ?_
  · have e : idx_main_v2 (ix2 n d) k.castSucc = ix3 n k.castSucc d :=
      funext fun a => Fin.ext (by match a with | ⟨0, _⟩ => rfl | ⟨1, _⟩ => rfl | ⟨2, _⟩ => rfl)
    rw [e]; exact joined_old x0 x1 n k d
  · have e : idx_main_v2 (ix2 n d) (Fin.last 32) = ix3 n (Fin.last 32) d :=
      funext fun a => Fin.ext (by match a with | ⟨0, _⟩ => rfl | ⟨1, _⟩ => rfl | ⟨2, _⟩ => rfl)
    rw [e]; exact joined_new x0 x1 n d

/-- The reference's result array is the layer. -/
theorem result_eq : val_main_v6 (F := Ideal) x0 x1 x2 = MeanLayer.layer x0 x1 x2 := by
  funext i
  obtain ⟨n, j, rfl⟩ : ∃ (n : Fin 10000) (j : Fin 128), i = ix2 n j := ⟨i 0, i 1, eq_ix2 i⟩
  rw [val_main_v6_apply, val_main_v5_apply, val_main_call0_v0_apply, val_main_call0_cst_apply]
  show max (∑ k : Fin 128, val_main_v4 (F := Ideal) x0 x1 (lidx_main_v5 (ix2 n j) k) * x2 (ridx_main_v5 (ix2 n j) k))
      (Ideal.ofBits .f32 0x00000000#32) = max (∑ d : Fin 128, MeanLayer.mean x0 x1 n d * x2 (ix2 d j)) 0
  rw [Ideal.ofBits_zero_f32]
  refine congrArg (fun z => max z 0) (Finset.sum_congr rfl fun d _ => ?_)
  have el : lidx_main_v5 (ix2 n j) d = ix2 n d :=
    funext fun a => Fin.ext (by match a with | ⟨0, _⟩ => rfl | ⟨1, _⟩ => rfl)
  have er : ridx_main_v5 (ix2 n j) d = ix2 d j :=
    funext fun a => Fin.ext (by match a with | ⟨0, _⟩ => rfl | ⟨1, _⟩ => rfl)
  rw [el, er, averaged_apply]

end Cert.ReferenceIdeal.Entry

end
-- ==== Proof.lean ====
/-
  One mean-aggregation layer of a graph network: a blocked kernel against the plain formula.

  Both programs compute, for node n and output feature j,

      out(n, j) = max ( Σ_d  ( Σ_{k<32} neigh(n, k, d) + self(n, d) ) · (1/33) · W(d, j) , 0 ).

  The kernel takes 400 nodes at a time: it sums a node's 32 neighbour rows, adds the node's own row, scales by the
  constant named 1/33, multiplies the 400 averaged rows by the weight matrix and clips at zero; its 25 blocks tile the
  10000 rows (Proof/KernelEntry.lean: one stored entry; Proof/WholeArray.lean: from the blocks to the array).  The
  reference appends the node's own row to its neighbour rows, sums the 33 rows, divides by 33, multiplies by the weights
  and clips at zero (Proof/RefEntry.lean).  Proof/MeanLayer.lean states the formula and the one law that joins the two
  readings: a sum of 33 terms is the sum of the first 32 plus the last, and dividing by 33 is multiplying by 1/33 — both
  hold on all extended reals, so the inputs' finiteness is never used.  The kernel's idealization differs from the
  kernel in the one named constant, whose value the certificate's table gives as 1/33.
-/
import proofs.«123749_g8315056685452_cont_sun_m_1305_14_alg».proof.Defs
import proofs.«123749_g8315056685452_cont_sun_m_1305_14_alg».proof.Proof.Gen.Kernel
import proofs.«123749_g8315056685452_cont_sun_m_1305_14_alg».proof.Proof.Gen.Kernel.Frame
import proofs.«123749_g8315056685452_cont_sun_m_1305_14_alg».proof.Proof.Gen.KernelIdeal
import proofs.«123749_g8315056685452_cont_sun_m_1305_14_alg».proof.Proof.Gen.KernelIdeal.Frame
import proofs.«123749_g8315056685452_cont_sun_m_1305_14_alg».proof.Proof.Gen.KernelIdeal.Value
import proofs.«123749_g8315056685452_cont_sun_m_1305_14_alg».proof.Proof.Gen.ReferenceIdeal
import proofs.«123749_g8315056685452_cont_sun_m_1305_14_alg».proof.Proof.Gen.ReferenceIdeal.Run
import proofs.«123749_g8315056685452_cont_sun_m_1305_14_alg».proof.Proof.Gen.ReferenceIdeal.Read
import proofs.«123749_g8315056685452_cont_sun_m_1305_14_alg».proof.Proof.Gen.Pre_finite_inputs
import proofs.«123749_g8315056685452_cont_sun_m_1305_14_alg».proof.Proof.WholeArray
import proofs.«123749_g8315056685452_cont_sun_m_1305_14_alg».proof.Proof.RefEntry
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The one rewrite of the idealization: the scaling constant is named, and the table gives the name the value 1/33. -/
theorem preserves : Cert.preserves_Kernel_KernelIdeal :=
  IdealRules.named_const.statement Cert.KernelIdeal.κ "inv_33" .f32 0x3CF83E10#32 ((1 / 33 : ℝ) : EReal) rfl

/-- From arguments that agree, the kernel's output array and the reference's result are the same layer of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Entry.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
